-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S1x2048 : Shape := ⟨2, ![1, 2048]⟩
abbrev S1 : Shape := ⟨1, ![1]⟩
abbrev S2048x128 : Shape := ⟨2, ![2048, 128]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_
  bcast_S_S1 : S_.BroadcastsInDim S1 (![] : Fin 0 → Fin S1.rank)
  reducesTo_S1_S_d0 : S1.ReducesTo [0] S_
  bcast_S_S2048x128 : S_.BroadcastsInDim S2048x128 (![] : Fin 0 → Fin S2048x128.rank)
  reducesTo_S2048x128_S_d0_1 : S2048x128.ReducesTo [0, 1] S_

variable [Facts]

def fn_part1 {F : FTy → Type} [FloatOps F] (main_v13 : IVec S_ 1) (main_v16 : IVec S2048x128 1) : IVec S_ 1 :=
  let main_c_5 : IVec S_ 1 := constantI S_ 1 1#1
  let main_v17 : IVec S_ 1 := (fun x v => Host.reduce IntOp.andi x v reducesTo_S2048x128_S_d0_1 h_S_) main_v16 main_c_5
  let main_v18 : IVec S_ 1 := andi main_v13 main_v17
  main_v18

def fn {F : FTy → Type} [FloatOps F] (main_arg0 : FVec F S16384x2048 .f32) (main_arg1 : FVec F S1x2048 .f32) (main_arg2 : FVec F S1 .f32) (main_arg3 : FVec F S2048x128 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S1x2048 .f32 := Host.absf main_arg1
  let main_cst_0 : FVec F S_ .f32 := constant S_ .f32 0x7F800000#32
  let main_v5 : FVec F S1x2048 .f32 := broadcastInDim S1x2048 ![] bcast_S_S1x2048 main_cst_0
  let main_v6 : IVec S1x2048 1 := cmpf .olt main_v4 main_v5
  let main_c_1 : IVec S_ 1 := constantI S_ 1 1#1
  let main_v7 : IVec S_ 1 := (fun x v => Host.reduce IntOp.andi x v reducesTo_S1x2048_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S2048x128 .f32 := Host.absf main_arg3
  let main_cst_4 : FVec F S_ .f32 := constant S_ .f32 0x7F800000#32
  let main_v15 : FVec F S2048x128 .f32 := broadcastInDim S2048x128 ![] bcast_S_S2048x128 main_cst_4
  let main_v16 : IVec S2048x128 1 := cmpf .olt main_v14 main_v15
  fn_part1 (F := F) main_v13 main_v16
-- ==== Kernel.lean ====
abbrev S16384x2048 : Shape := ⟨2, ![16384, 2048]⟩
abbrev S1x2048 : Shape := ⟨2, ![1, 2048]⟩
abbrev S1 : Shape := ⟨1, ![1]⟩
abbrev S2048x128 : Shape := ⟨2, ![2048, 128]⟩
abbrev S16384x1 : Shape := ⟨2, ![16384, 1]⟩
abbrev S512x2048 : Shape := ⟨2, ![512, 2048]⟩
abbrev S512x1 : Shape := ⟨2, ![512, 1]⟩
abbrev S512 : Shape := ⟨1, ![512]⟩
abbrev S512x128 : Shape := ⟨2, ![512, 128]⟩

abbrev nBuf : Space → Nat
  | .hbm => 5
  | .vmem => 7
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1, .f32⟩
  | .hbm, ⟨3, _⟩ => ⟨S2048x128, .f32⟩
  | .hbm, ⟨4, _⟩ => ⟨S16384x1, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1, .f32⟩
  | .local _ .vmem, ⟨4, _⟩ => ⟨S2048x128, .f32⟩
  | .local _ .vmem, ⟨5, _⟩ => ⟨S512x1, .f32⟩
  | .local _ .vmem, ⟨6, _⟩ => ⟨S512x1, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S512x2048_S512x2048_0_0 : ∀ a, (![0, 0] : Fin 2 → Nat) a + S512x2048.size a ≤ S512x2048.size a
  h_S512x2048 : 0 < S512x2048.numel
  inb_S1x2048_S1x2048_0_0 : ∀ a, (![0, 0] : Fin 2 → Nat) a + S1x2048.size a ≤ S1x2048.size a
  h_S1x2048 : 0 < S1x2048.numel
  inb_S1_S1_0 : ∀ a, (![0] : Fin 1 → Nat) a + S1.size a ≤ S1.size a
  h_S1 : 0 < S1.numel
  inb_S2048x128_S2048x128_0_0 : ∀ a, (![0, 0] : Fin 2 → Nat) a + S2048x128.size a ≤ S2048x128.size a
  h_S2048x128 : 0 < S2048x128.numel
  broadcasts_S1x2048_S512x2048 : S1x2048.Broadcasts S512x2048
  reduces_S512x2048_S512 : S512x2048.Reduces [1] S512
  shapeCasts_S512_S512x1 : S512.ShapeCasts S512x1
  inpos_S1_p0 : ∀ a, (![0] : Fin 1 → Nat) a < S1.size a
  bitsLt_bf16_f32 : FTy.bits .bf16 < FTy.bits .f32
  reduces_S512x128_S512 : S512x128.Reduces [1] S512
  inb_S512x1_S512x1_0_0 : ∀ a, (![0, 0] : Fin 2 → Nat) a + S512x1.size a ≤ S512x1.size a
  h_S512x1 : 0 < S512x1.numel
  dot_S512x2048_S2048x128_S512x128_1_0_0_1_n_n_wf : DotDims.WF S512x2048 S2048x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1.size a ≤ S1.size a
  hwx0_2 : ∀ i : grid0.Coords, EltTy.bits .f32 = 32 ∨ (Rect.block (s := S1) S1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S2048x128.size a
  hwx0_3 : ∀ i : grid0.Coords, EltTy.bits .f32 = 32 ∨ (Rect.block (s := S2048x128) S2048x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S16384x1.size a
  hwx0_4 : ∀ i : grid0.Coords, EltTy.bits .f32 = 32 ∨ (Rect.block (s := S16384x1) S512x1.size (cc0_transform_4 i) (hinb0_4 i)).WholeWords (EltTy.packing .f32)

variable [Facts₀]

def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S1x2048 : Shape := ⟨2, ![1, 2048]⟩
abbrev S1 : Shape := ⟨1, ![1]⟩
abbrev S2048x128 : Shape := ⟨2, ![2048, 128]⟩
abbrev S2048x1 : Shape := ⟨2, ![2048, 1]⟩
abbrev S16384x1 : Shape := ⟨2, ![16384, 1]⟩
abbrev S1x1 : Shape := ⟨2, ![1, 1]⟩
abbrev S16384x128 : Shape := ⟨2, ![16384, 128]⟩
abbrev S_ : Shape := ⟨0, ![]⟩
abbrev S16384 : Shape := ⟨1, ![16384]⟩

abbrev nBuf : Space → Nat
  | .hbm => 22
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1, .f32⟩
  | .hbm, ⟨3, _⟩ => ⟨S2048x128, .f32⟩
  | .hbm, ⟨4, _⟩ => ⟨S2048x1, .f32⟩
  | .hbm, ⟨5, _⟩ => ⟨S16384x1, .f32⟩
  | .hbm, ⟨6, _⟩ => ⟨S1x1, .f32⟩
  | .hbm, ⟨7, _⟩ => ⟨S16384x1, .f32⟩
  | .hbm, ⟨8, _⟩ => ⟨S16384x1, .f32⟩
  | .hbm, ⟨9, _⟩ => ⟨S16384x128, .f32⟩
  | .hbm, ⟨10, _⟩ => ⟨S16384x2048, .f32⟩
  | .hbm, ⟨11, _⟩ => ⟨S2048x128, .f32⟩
  | .hbm, ⟨12, _⟩ => ⟨S16384x128, .f32⟩
  | .hbm, ⟨13, _⟩ => ⟨S16384x128, .f32⟩
  | .hbm, ⟨14, _⟩ => ⟨S16384x128, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  transposes_S1x2048_S2048x1_1_0 : S1x2048.Transposes [1, 0] S2048x1
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x128_S16384_d1 : S16384x128.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  dot_S16384x2048_S2048x1_S16384x1_1_0_0_1_n_n_wf : DotDims.WF S16384x2048 S2048x1 S16384x1 [1] [0] [0] [1] [] []
  dot_S16384x2048_S2048x128_S16384x128_1_0_0_1_n_n_wf : DotDims.WF S16384x2048 S2048x128 S16384x128 [1] [0] [0] [1] [] []

variable [Facts₀]

def dot_S16384x2048_S2048x1_S16384x1_1_0_0_1_n_n : DotDims S16384x2048 S2048x1 S16384x1 where
  lhsContracting := [1]
  rhsContracting := [0]
  lhsNonContracting := [0]
  rhsNonContracting := [1]
  lhsBatch := []
  rhsBatch := []
  wf := dot_S16384x2048_S2048x1_S16384x1_1_0_0_1_n_n_wf
def dot_S16384x2048_S2048x128_S16384x128_1_0_0_1_n_n : DotDims S16384x2048 S2048x128 S16384x128 where
  lhsContracting := [1]
  rhsContracting := [0]
  lhsNonContracting := [0]
  rhsNonContracting := [1]
  lhsBatch := []
  rhsBatch := []
  wf := dot_S16384x2048_S2048x128_S16384x128_1_0_0_1_n_n_wf

class Facts : Prop extends Facts₀ where

variable [Facts]
-- ==== Proof.Score.lean ====
/-
  The factorization-machine score as one function of the four argument arrays.

  A row r of the feature matrix x (16384 rows, 2048 features), a weight row w (1 by 2048), a bias b (one entry) and an
  embedding table v (2048 by 128) give

      score r = (Σ_d x[r,d]·w[0,d] + b[0]) + ½ · Σ_k ( (Σ_d x[r,d]·v[d,k])² − Σ_d x[r,d]²·v[d,k]² ),

  read on the extended reals, every sum a finite sum over its index type. The linear term is the first bracket; the
  second is the pairwise-interaction term in its "square of sums minus sum of squares" form. Both programs compute this
  expression with the same grouping of the products, of the difference and of the two outer sums, so no law of the
  extended reals beyond 0 + a = a is needed to compare them, and the inputs' finiteness is never used.
-/
import Idealize.ShloMosaic.PureOps.Ideal
import Idealize.ShloMosaic.PureOps.Ideal.Laws
import Idealize.ShloMosaic.Lib.ValueIdx

noncomputable section

open scoped BigOperators

namespace Cert.FM

open Idealize.ShloMosaic Idealize.ShloMosaic.ValueIdx

/-- The factor ½ as both programs spell it: the binary32 word of 0.5, never evaluated. -/
abbrev half : EReal := Ideal.ofBits .f32 0x3F000000#32

/-- The score of ONE row: `xr` the row's features, `w` the weights, `b` the bias, `v` the embedding table
    (feature by factor). -/
def rowScore {D K : ℕ} (xr : Fin D → EReal) (w : Fin D → EReal) (b : EReal) (v : Fin D → Fin K → EReal) : EReal :=
  ((∑ d : Fin D, xr d * w d) + b)
    + half * ∑ k : Fin K, ((∑ d : Fin D, xr d * v d k) * (∑ d : Fin D, xr d * v d k)
        - ∑ d : Fin D, (xr d * xr d) * (v d k * v d k))

/-- The whole result column: entry (r, 0) is the score of row r of `x`. -/
def score (x : (⟨2, ![16384, 2048]⟩ : Shape).Idx → EReal) (w : (⟨2, ![1, 2048]⟩ : Shape).Idx → EReal)
    (b : (⟨1, ![1]⟩ : Shape).Idx → EReal) (v : (⟨2, ![2048, 128]⟩ : Shape).Idx → EReal) :
    (⟨2, ![16384, 1]⟩ : Shape).Idx → EReal :=
  fun i => rowScore (fun d : Fin 2048 => x (ix2 (i 0) d)) (fun d : Fin 2048 => w (ix2 (0 : Fin 1) d)) (b (ix1 (0 : Fin 1)))
    (fun (d : Fin 2048) (k : Fin 128) => v (ix2 d k))

end Cert.FM

end
-- ==== Proof.LibMatmul.lean ====
/-
  A matrix product into a zero accumulator, read at an index, as a plain sum of products over the contracted axis.

  For a product of an n-by-K array with a K-by-M array whose dimension numbers contract the left operand's columns
  against the right operand's rows, the entry at (p, q) is the sum over k of left(p, k) · right(k, q). The four facts
  about the dimension numbers that say so (which coordinate of each operand index comes from the output index and which
  from the contraction index) are taken as hypotheses, since each printed record proves them by unfolding.
-/
import Idealize.ShloMosaic.PureOps.Ideal.Laws
import Idealize.ShloMosaic.Lib.ValueIdx

noncomputable section

open scoped BigOperators

namespace Cert.Lib.Matmul

open Idealize.ShloMosaic Idealize.ShloMosaic.ValueIdx

/-- A kernel's matrix product into the zero splat, at the ideal values, read at `(p, q)`: the sum over the contracted
    axis of the left operand's row `p` times the right operand's column `q`. -/
theorem matmul_zero_ix2 {n K M : ℕ} {φ₁ φ₂ : FTy}
    (d : DotDims (⟨2, ![n, K]⟩ : Shape) (⟨2, ![K, M]⟩ : Shape) (⟨2, ![n, M]⟩ : Shape)) (prec : Option ContractPrecision)
    (hr : d.contr.rank = 1) (hs : d.contr.size ⟨0, by omega⟩ = K)
    (hl0 : ∀ j c, (d.lhsIdx j c 0).val = (j 0).val) (hl1 : ∀ j c, (d.lhsIdx j c 1).val = (c ⟨0, by omega⟩).val)
    (hr0 : ∀ j c, (d.rhsIdx j c 0).val = (c ⟨0, by omega⟩).val) (hr1 : ∀ j c, (d.rhsIdx j c 1).val = (j 1).val)
    (lhs : FVec Ideal (⟨2, ![n, K]⟩ : Shape) φ₁) (rhs : FVec Ideal (⟨2, ![K, M]⟩ : Shape) φ₂) (p : Fin n) (q : Fin M) :
    FloatOps.matmul d prec lhs rhs (constant (⟨2, ![n, M]⟩ : Shape) .f32 0x00000000#32) (ix2 p q)
      = ∑ k : Fin K, lhs (ix2 p k) * rhs (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

/-- The host's `dot_general` with the same dimension numbers, read the same way. -/
theorem dotGeneral_ix2 {n K M : ℕ} {φ₁ φ₂ : FTy}
    (d : DotDims (⟨2, ![n, K]⟩ : Shape) (⟨2, ![K, M]⟩ : Shape) (⟨2, ![n, M]⟩ : Shape)) (prec : Option ContractPrecision)
    (sched : HostSchedule)
    (hr : d.contr.rank = 1) (hs : d.contr.size ⟨0, by omega⟩ = K)
    (hl0 : ∀ j c, (d.lhsIdx j c 0).val = (j 0).val) (hl1 : ∀ j c, (d.lhsIdx j c 1).val = (c ⟨0, by omega⟩).val)
    (hr0 : ∀ j c, (d.rhsIdx j c 0).val = (c ⟨0, by omega⟩).val) (hr1 : ∀ j c, (d.rhsIdx j c 1).val = (j 1).val)
    (lhs : FVec Ideal (⟨2, ![n, K]⟩ : Shape) φ₁) (rhs : FVec Ideal (⟨2, ![K, M]⟩ : Shape) φ₂) (p : Fin n) (q : Fin M) :
    FloatOps.dotGeneral d prec sched lhs rhs (ix2 p q) = ∑ k : Fin K, lhs (ix2 p k) * rhs (ix2 k q) := by
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.Lib.Matmul

end
-- ==== Proof.LibColumn.lean ====
/-
  Column forms of two layout operations, read at an index: a length-a vector cast to an a-by-1 column,
  and an a-by-1 column broadcast across b columns. (A row sum kept as a column, then spread back over the row.)
-/
import Idealize.ShloMosaic.Lib.Pipeline.Value
import Idealize.ShloMosaic.Lib.ValueIdx

noncomputable section

namespace Cert.Lib.Column

open Idealize.ShloMosaic Idealize.ShloMosaic.ValueIdx

variable {α : Type}

/-- A length-`a` vector cast to an `a`-by-1 column reads, at `(i, u)`, the vector at `i`: both sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `a`-by-1 column broadcast to `a`-by-`b` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Column

end
-- ==== Proof.BodyScore.lean ====
/-
  What one grid point computes, entry by entry.

  The body loads a block of 512 rows of x, the whole weight row, the bias and the whole embedding table, and stores a
  512-by-1 column. Entry (p, 0) of that column is the score of the block's row p: the linear part is the sum along the
  2048 lanes of x∘w (the weight row repeated down the rows) kept as a column, plus the bias; the interaction part is ½ of
  the sum along the 128 factor lanes of (x·v)∘(x·v) − (x∘x)·(v∘v), both products taken into a zero accumulator after a
  change of float format that is the identity on the extended reals.
-/
import proofs.«122142_j90134183673918_1_alg».proof.Proof.Gen.KernelIdeal.Skeleton
import proofs.«122142_j90134183673918_1_alg».proof.Proof.Score
import proofs.«122142_j90134183673918_1_alg».proof.Proof.LibMatmul
import proofs.«122142_j90134183673918_1_alg».proof.Proof.LibColumn
import Idealize.ShloMosaic.Lib.Pipeline.Value
import Idealize.ShloMosaic.Lib.ValueIdx
import Idealize.ShloMosaic.PureOps.Ideal.Laws

noncomputable section

open scoped BigOperators

namespace Cert.FM.Body

open Cert.KernelIdeal Cert.KernelIdeal.Gen Idealize.ShloMosaic Idealize.ShloMosaic.ValueIdx

/-! ### Layout and reduction steps read at an index -/

/-- A 1-by-b row repeated down a rows reads, at (p, d), the row at (0, d). -/
theorem row_broadcast_apply (w : Vec Ideal S1x2048 .f32) (p : Fin 512) (d : Fin 2048) :
    broadcastTo S512x2048 w broadcasts_S1x2048_S512x2048 (ix2 p d) = w (ix2 (0 : Fin 1) d) := by
  refine broadcastTo_apply w broadcasts_S1x2048_S512x2048 (ix2 p d) (ix2 (0 : Fin 1) d) fun a => ?_
  match a with
  | ⟨0, _⟩ => show 0 = if (1 : Nat) = 1 then 0 else p.val; rw [if_pos rfl]
  | ⟨1, _⟩ => show d.val = if (2048 : Nat) = 1 then 0 else d.val; rw [if_neg (by decide)]

/-- A sum along the lanes (the second axis) of an n-by-K array, read at row p: the sum over the K lanes of the
    entries (p, k). -/
theorem lane_sum_apply {n K : ℕ} (src : FVec Ideal (⟨2, ![n, K]⟩ : Shape) .f32)
    (h : (⟨2, ![n, K]⟩ : Shape).Reduces [1] (⟨1, ![n]⟩ : Shape)) (hφ : FKind.Formats .f32)
    (hacc : (0x00000000#32 : BitVec 32) = FKind.add.neutral .f32 hφ) (p : Fin n) :
    multiReduction .add [1] (⟨1, ![n]⟩ : Shape) src 0x00000000#32 h hφ hacc (ix1 p) = ∑ k : Fin K, src (ix2 p k) := by
  refine (Ideal.multiReduction_add_single src 0x00000000#32 h hφ hacc (ix1 p)).trans ?_
  refine Finset.sum_congr rfl fun k _ => congrArg src ?_
  funext a
  apply Fin.ext
  match a with
  | ⟨0, _⟩ => rfl
  | ⟨1, _⟩ => rfl

/-- The bias block's one entry, extracted as a scalar. -/
theorem bias_extract (b : Vec Ideal S1 .f32) : extractAt ![0] b inpos_S1_p0 = b (ix1 (0 : Fin 1)) :=
  congrArg b (funext fun a => by match a with | ⟨0, _⟩ => rfl)

/-! ### The matrix products' dimension numbers -/

theorem dot_lhs0 (j : S512x128.Idx) (q : dot_S512x2048_S2048x128_S512x128_1_0_0_1_n_n.contr.Idx) :
    (dot_S512x2048_S2048x128_S512x128_1_0_0_1_n_n.lhsIdx j q 0).val = (j 0).val := by
  unfold DotDims.lhsIdx
  rw [dif_neg (show ¬(0 : Fin S512x2048.rank) ∈ dot_S512x2048_S2048x128_S512x128_1_0_0_1_n_n.lhsBatch by decide),
    dif_pos (show (0 : Fin S512x2048.rank) ∈ dot_S512x2048_S2048x128_S512x128_1_0_0_1_n_n.lhsNonContracting by decide)]
  rfl

theorem dot_lhs1 (j : S512x128.Idx) (q : dot_S512x2048_S2048x128_S512x128_1_0_0_1_n_n.contr.Idx) :
    (dot_S512x2048_S2048x128_S512x128_1_0_0_1_n_n.lhsIdx j q 1).val = (q ⟨0, by decide⟩).val :=
  dot_S512x2048_S2048x128_S512x128_1_0_0_1_n_n.lhsIdx_val_of_single rfl j q

theorem dot_rhs0 (j : S512x128.Idx) (q : dot_S512x2048_S2048x128_S512x128_1_0_0_1_n_n.contr.Idx) :
    (dot_S512x2048_S2048x128_S512x128_1_0_0_1_n_n.rhsIdx j q 0).val = (q ⟨0, by decide⟩).val :=
  dot_S512x2048_S2048x128_S512x128_1_0_0_1_n_n.rhsIdx_val_of_single rfl j q

theorem dot_rhs1 (j : S512x128.Idx) (q : dot_S512x2048_S2048x128_S512x128_1_0_0_1_n_n.contr.Idx) :
    (dot_S512x2048_S2048x128_S512x128_1_0_0_1_n_n.rhsIdx j q 1).val = (j 1).val := by
  unfold DotDims.rhsIdx
  rw [dif_neg (show ¬(1 : Fin S2048x128.rank) ∈ dot_S512x2048_S2048x128_S512x128_1_0_0_1_n_n.rhsBatch by decide),
    dif_pos (show (1 : Fin S2048x128.rank) ∈ dot_S512x2048_S2048x128_S512x128_1_0_0_1_n_n.rhsNonContracting by decide)]
  rfl

/-- A block product into the zero accumulator at (p, k): the sum over the 2048 features of left (p, d) · right (d, k). -/
theorem product_apply {φ₁ φ₂ : FTy} (l : FVec Ideal S512x2048 φ₁) (r : FVec Ideal S2048x128 φ₂) (p : Fin 512) (k : Fin 128) :
    matmul dot_S512x2048_S2048x128_S512x128_1_0_0_1_n_n none l r (constant (F := Ideal) S512x128 .f32 0x00000000#32) (ix2 p k)
      = ∑ d : Fin 2048, l (ix2 p d) * r (ix2 d k) :=
  Cert.Lib.Matmul.matmul_zero_ix2 dot_S512x2048_S2048x128_S512x128_1_0_0_1_n_n none rfl rfl dot_lhs0 dot_lhs1 dot_rhs0 dot_rhs1
    l r p k

/-! ### The two parts of the stored column -/

/-- The lane sum of x∘w, kept as a column. -/
def linPart (x0 : Vec Ideal S512x2048 .f32) (x1 : Vec Ideal S1x2048 .f32) : FVec Ideal S512x1 .f32 :=
  shapeCast S512x1
    (multiReduction .add [1] S512 (mulf x0 (broadcastTo S512x2048 x1 broadcasts_S1x2048_S512x2048)) 0x00000000#32
      reduces_S512x2048_S512 (.inl rfl) rfl)
    shapeCasts_S512_S512x1

/-- The factor-lane sum of (x·v)∘(x·v) − (x∘x)·(v∘v), kept as a column. -/
def interPart (x0 : Vec Ideal S512x2048 .f32) (x3 : Vec Ideal S2048x128 .f32) : FVec Ideal S512x1 .f32 :=
  shapeCast S512x1
    (multiReduction .add [1] S512
      (subf
        (mulf
          (matmul dot_S512x2048_S2048x128_S512x128_1_0_0_1_n_n none (truncf .bf16 x0 bitsLt_bf16_f32)
            (truncf .bf16 x3 bitsLt_bf16_f32) (constant S512x128 .f32 0x00000000#32))
          (matmul dot_S512x2048_S2048x128_S512x128_1_0_0_1_n_n none (truncf .bf16 x0 bitsLt_bf16_f32)
            (truncf .bf16 x3 bitsLt_bf16_f32) (constant S512x128 .f32 0x00000000#32)))
        (matmul dot_S512x2048_S2048x128_S512x128_1_0_0_1_n_n none (truncf .bf16 (mulf x0 x0) bitsLt_bf16_f32)
          (truncf .bf16 (mulf x3 x3) bitsLt_bf16_f32) (constant S512x128 .f32 0x00000000#32)))
      0x00000000#32 reduces_S512x128_S512 (.inl rfl) rfl)
    shapeCasts_S512_S512x1

/-- The linear part at row p: Σ_d x(p, d) · w(0, d). -/
theorem linPart_apply (x0 : Vec Ideal S512x2048 .f32) (x1 : Vec Ideal S1x2048 .f32) (p : Fin 512) (u : Fin 1) :
    linPart x0 x1 (ix2 p u) = ∑ d : Fin 2048, x0 (ix2 p d) * x1 (ix2 (0 : Fin 1) d) := by
  unfold linPart
  refine (Cert.Lib.Column.shapeCast_a_a1_apply _ shapeCasts_S512_S512x1 p u).trans ?_
  refine (lane_sum_apply _ reduces_S512x2048_S512 (.inl rfl) rfl p).trans ?_
  exact Finset.sum_congr rfl fun d _ => congrArg (x0 (ix2 p d) * ·) (row_broadcast_apply x1 p d)

/-- The interaction part at row p: Σ_k ((Σ_d x(p,d)·v(d,k))² − Σ_d x(p,d)²·v(d,k)²). -/
theorem interPart_apply (x0 : Vec Ideal S512x2048 .f32) (x3 : Vec Ideal S2048x128 .f32) (p : Fin 512) (u : Fin 1) :
    interPart x0 x3 (ix2 p u)
      = ∑ k : Fin 128, ((∑ d : Fin 2048, x0 (ix2 p d) * x3 (ix2 d k)) * (∑ d : Fin 2048, x0 (ix2 p d) * x3 (ix2 d k))
          - ∑ d : Fin 2048, (x0 (ix2 p d) * x0 (ix2 p d)) * (x3 (ix2 d k) * x3 (ix2 d k))) := by
  unfold interPart
  refine (Cert.Lib.Column.shapeCast_a_a1_apply _ shapeCasts_S512_S512x1 p u).trans ?_
  refine (lane_sum_apply _ reduces_S512x128_S512 (.inl rfl) rfl p).trans ?_
  refine Finset.sum_congr rfl fun k _ => ?_
  have e1 := product_apply (truncf .bf16 x0 bitsLt_bf16_f32) (truncf .bf16 x3 bitsLt_bf16_f32) p k
  have e2 := product_apply (truncf .bf16 (mulf x0 x0) bitsLt_bf16_f32) (truncf .bf16 (mulf x3 x3) bitsLt_bf16_f32) p k
  exact congrArg₂ (fun a b : EReal => a * a - b) e1 e2

/-! ### The stored column -/

/-- The stored value is the linear part plus the bias, plus ½ of the interaction part. -/
theorem stored_split (x0 : Vec Ideal S512x2048 .f32) (x1 : Vec Ideal S1x2048 .f32) (x2 : Vec Ideal S1 .f32)
    (x3 : Vec Ideal S2048x128 .f32) :
    k0_pay1 (F := Ideal) x0 x1 x2 x3
      = addf (addf (linPart x0 x1) (broadcast S512x1 (extractAt ![0] x2 inpos_S1_p0)))
          (mulf (broadcast S512x1 (Scalar.ofBits (F := Ideal) .f32 0x3F000000#32)) (interPart x0 x3)) := rfl

/-- Entry (p, 0) of the stored column is the score of the block's row p. -/
theorem stored_apply (x0 : Vec Ideal S512x2048 .f32) (x1 : Vec Ideal S1x2048 .f32) (x2 : Vec Ideal S1 .f32)
    (x3 : Vec Ideal S2048x128 .f32) (p : Fin 512) (u : Fin 1) :
    k0_pay1 (F := Ideal) x0 x1 x2 x3 (ix2 p u)
      = Cert.FM.rowScore (fun d : Fin 2048 => x0 (ix2 p d)) (fun d : Fin 2048 => x1 (ix2 (0 : Fin 1) d)) (x2 (ix1 (0 : Fin 1)))
          (fun (d : Fin 2048) (k : Fin 128) => x3 (ix2 d k)) := by
  refine (congrFun (stored_split x0 x1 x2 x3) (ix2 p u)).trans ?_
  show (linPart x0 x1 (ix2 p u) + extractAt ![0] x2 inpos_S1_p0) + Cert.FM.half * interPart x0 x3 (ix2 p u) = _
  rw [linPart_apply, interPart_apply, bias_extract]
  rfl

end Cert.FM.Body

end
-- ==== Proof.KernelScore.lean ====
/-
  From the grid points' blocks to the whole result column.

  The grid has 32 points; point t reads rows 512·t … 512·t + 511 of x (block t along the rows, all 2048 columns) and the
  whole weight row, bias and embedding table at every point, and writes back rows 512·t … 512·t + 511 of the result column.
  So entry (p, 0) of what point t writes is the score of row 512·t + p of x, the 32 written blocks tile the 16384 rows,
  and the result array ends holding the score column.
-/
import proofs.«122142_j90134183673918_1_alg».proof.Proof.Gen.KernelIdeal.Value
import proofs.«122142_j90134183673918_1_alg».proof.Proof.BodyScore

noncomputable section

open scoped BigOperators

namespace Cert.FM.Kernel

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a <;> rfl

/-- The block index of every window at every grid point, decided over the 32 points: x and the result move with the
    point along the rows; the weight row, the bias and the table stay at block 0. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ### Each input block as entries of its argument array -/

/-- Entry (p, d) of x's block at point t is x at (512·t + p, d). -/
theorem x_block (c : Dev nD) (t : Fin cfg0.N) (y : S512x2048.Idx) (k : S16384x2048.Idx)
    (hk0 : (k 0).val = 512 * t.val + (y 0).val) (hk1 : (k 1).val = (y 1).val) :
    (iblk m c 0 t : Vec Ideal S512x2048 .f32) y = (V m c main_arg0 : S16384x2048.Idx → Elt Ideal .f32) k := by
  obtain ⟨e0, e1, -⟩ := block_index t
  unfold iblk
  rw [View.read_apply]
  show V m c main_arg0 _ = V m c main_arg0 _
  refine congrArg (V m c main_arg0) ?_
  funext a
  apply Fin.ext
  match a with
  | ⟨0, _⟩ => show win0_0.index t (0 : Fin 2) * 512 + 1 * (y 0).val = (k 0).val; rw [e0, hk0]; omega
  | ⟨1, _⟩ => show win0_0.index t (1 : Fin 2) * 2048 + 1 * (y 1).val = (k 1).val; rw [e1, hk1]; omega

/-- The weight row's block is the weight row. -/
theorem w_block (c : Dev nD) (t : Fin cfg0.N) (y : S1x2048.Idx) :
    (iblk m c 1 t : Vec Ideal S1x2048 .f32) y = (V m c main_arg1 : S1x2048.Idx → Elt Ideal .f32) y := by
  obtain ⟨-, -, e2, e3, -⟩ := block_index t
  unfold iblk
  rw [View.read_apply]
  show V m c main_arg1 _ = V m c main_arg1 _
  refine congrArg (V m c main_arg1) ?_
  funext a
  apply Fin.ext
  match a with
  | ⟨0, _⟩ => show win0_1.index t (0 : Fin 2) * 1 + 1 * (y 0).val = (y 0).val; rw [e2]; omega
  | ⟨1, _⟩ => show win0_1.index t (1 : Fin 2) * 2048 + 1 * (y 1).val = (y 1).val; rw [e3]; omega

/-- The bias's block is the bias. -/
theorem b_block (c : Dev nD) (t : Fin cfg0.N) (y : S1.Idx) :
    (iblk m c 2 t : Vec Ideal S1 .f32) y = (V m c main_arg2 : S1.Idx → Elt Ideal .f32) y := by
  obtain ⟨-, -, -, -, e4, -⟩ := block_index t
  unfold iblk
  rw [View.read_apply]
  show V m c main_arg2 _ = V m c main_arg2 _
  refine congrArg (V m c main_arg2) ?_
  funext a
  apply Fin.ext
  match a with
  | ⟨0, _⟩ => show win0_2.index t (0 : Fin 1) * 1 + 1 * (y 0).val = (y 0).val; rw [e4]; omega

/-- The embedding table's block is the table. -/
theorem v_block (c : Dev nD) (t : Fin cfg0.N) (y : S2048x128.Idx) :
    (iblk m c 3 t : Vec Ideal S2048x128 .f32) y = (V m c main_arg3 : S2048x128.Idx → Elt Ideal .f32) y := by
  obtain ⟨-, -, -, -, -, e5, e6, -⟩ := block_index t
  unfold iblk
  rw [View.read_apply]
  show V m c main_arg3 _ = V m c main_arg3 _
  refine congrArg (V m c main_arg3) ?_
  funext a
  apply Fin.ext
  match a with
  | ⟨0, _⟩ => show win0_3.index t (0 : Fin 2) * 2048 + 1 * (y 0).val = (y 0).val; rw [e5]; omega
  | ⟨1, _⟩ => show win0_3.index t (1 : Fin 2) * 128 + 1 * (y 1).val = (y 1).val; rw [e6]; omega

/-! ### What a point writes back -/

/-- Entry y of what point t stores is the score column at the array index of y in the result's block t. -/
theorem point_value (c : Dev nD) (t : Fin cfg0.N) (y : S512x1.Idx) :
    k0_pay1 (F := Ideal) (iblk m c 0 t) (iblk m c 1 t) (iblk m c 2 t) (iblk m c 3 t) y
      = Cert.FM.score (V m c main_arg0) (V m c main_arg1) (V m c main_arg2) (V m c main_arg3)
          (((cfg0.win 4).blk t).view.emb y) := by
  obtain ⟨p, u, rfl⟩ : ∃ (p : Fin 512) (u : Fin 1), y = ix2 p u := ⟨y 0, y 1, eq_ix2 y⟩
  refine (Cert.FM.Body.stored_apply (iblk m c 0 t) (iblk m c 1 t) (iblk m c 2 t) (iblk m c 3 t) p u).trans ?_
  obtain ⟨-, -, -, -, -, -, -, e7, -⟩ := block_index t
  have hrow : ((((cfg0.win 4).blk t).view.emb (ix2 p u)) 0).val = 512 * t.val + p.val := by
    show win0_4.index t (0 : Fin 2) * 512 + 1 * p.val = 512 * t.val + p.val
    rw [e7]; omega
  unfold Cert.FM.score
  refine congr (congr (congr (congrArg Cert.FM.rowScore (funext fun d => ?_)) (funext fun d => ?_)) ?_)
    (funext fun d => funext fun k => ?_)
  · exact x_block m c t (ix2 p d) _ hrow rfl
  · exact w_block m c t (ix2 (0 : Fin 1) d)
  · exact b_block m c t (ix1 (0 : Fin 1))
  · exact v_block m c t (ix2 d k)

/-- WHAT POINT t WRITES BACK is block t of the score column of the argument arrays. -/
theorem flushed_eq (c : Dev nD) (t : Fin cfg0.N) :
    (dats m 0 c).flushed 4 t = ((cfg0.win 4).blk t).view.read (Elt Ideal)
      (Cert.FM.score (V m c main_arg0) (V m c main_arg1) (V m c main_arg2) (V m c main_arg3)) := by
  rw [flushed4]
  unfold out0_4
  rw [View.canon_unit_zero zero2]
  simp only [View.ld_unit_zero (S := S512x2048) zero2, View.ld_unit_zero (S := S1x2048) zero2,
    View.ld_unit_zero (S := S1) zero1, View.ld_unit_zero (S := S2048x128) zero2]
  funext y
  exact point_value m c t y

/-! ### The blocks tile the column -/

/-- An index of the result is in point t's block iff each coordinate is in the block's range on its axis. -/
theorem mem_block (t : Fin cfg0.N) (i : S16384x1.Idx) :
    i ∈ ((cfg0.win 4).blk t).view.set ↔ ∀ a : Fin 2, win0_4.index t a * S512x1.size a ≤ (i a).val
      ∧ (i a).val < win0_4.index t a * S512x1.size a + S512x1.size a := by
  show i ∈ ((View.whole main_v0).slice (win0_4.rect t)).set ↔ _
  rw [View.set_slice_whole, Rect.mem_set_unit]
  exact Iff.rfl

/-- Row r of the result lies in the block of point r / 512, which writes back. -/
theorem covered (i : S16384x1.Idx) :
    ∃ t : Fin cfg0.N, (cfg0.win 4).flush t = true ∧ i ∈ ((cfg0.win 4).blk t).view.set := by
  have hi0 : (i 0).val < 16384 := idx2_lt0 i
  have hi1 : (i 1).val < 1 := idx2_lt1 i
  have hN : cfg0.N = 32 := N_0
  obtain ⟨t, ht⟩ : ∃ t : Fin cfg0.N, t.val = (i 0).val / 512 := ⟨⟨(i 0).val / 512, by rw [hN]; omega⟩, rfl⟩
  obtain ⟨-, -, -, -, -, -, -, e7, e8⟩ := block_index t
  refine ⟨t, flush0_4 t, ?_⟩
  rw [mem_block]
  intro a
  match a with
  | ⟨0, _⟩ =>
    show win0_4.index t (0 : Fin 2) * 512 ≤ (i 0).val ∧ (i 0).val < win0_4.index t (0 : Fin 2) * 512 + 512
    rw [e7, ht]; omega
  | ⟨1, _⟩ =>
    show win0_4.index t (1 : Fin 2) * 1 ≤ (i 1).val ∧ (i 1).val < win0_4.index t (1 : Fin 2) * 1 + 1
    rw [e8]; omega

/-! ### The result array and the run -/

/-- After the last point the result array is the score column of the argument arrays. -/
theorem final (c : Dev nD) :
    (dats m 0 c).arrAt 4 cfg0.N
      = Cert.FM.score (m ((c : Thread nD τ).loc main_arg0)) (m ((c : Thread nD τ).loc main_arg1))
          (m ((c : Thread nD τ).loc main_arg2)) (m ((c : Thread nD τ).loc main_arg3)) :=
  (dats m 0 c).arrAt_eq_of_cover 4
    (Cert.FM.score (V m c main_arg0) (V m c main_arg1) (V m c main_arg2) (V m c main_arg3))
    (fun t _ => flushed_eq m c t) covered

/-- The kernel's run: every weakly fair execution terminates with the result array at the score column of the
    arguments and the arguments unchanged. -/
theorem run : θ_run defs (onTc (τ := τ) (main (F := Ideal))) ⟨m, fun _ => 0, ρ⟩ fun r => ∀ c : Dev nD,
      r.2.mem ((c : Thread nD τ).loc main_v0)
        = Cert.FM.score (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.FM.Kernel

end
-- ==== Proof.RefScore.lean ====
/-
  The reference's result, read entry by entry, is the score.

  The reference forms the linear term as the product of x with the transposed weight row plus the bias spread down the
  column, and the interaction term from the two products x·v and (x∘x)·(v∘v), their entrywise "square minus" difference
  summed over the 128 factors (from a zero start), halved, and added to the linear term. At row r each matrix product is
  the sum over the 2048 features of the two operands' entries, so the entry (r, 0) is the score of row r as written in
  the specification; the only arithmetic used is 0 + a = a for the zero the factor sum starts from.
-/
import proofs.«122142_j90134183673918_1_alg».proof.Proof.Gen.ReferenceIdeal.Read
import proofs.«122142_j90134183673918_1_alg».proof.Proof.Score

noncomputable section

open scoped BigOperators

namespace Cert.FM.Reference

open Cert.ReferenceIdeal Cert.ReferenceIdeal.Read Idealize.ShloMosaic Idealize.ShloMosaic.ValueIdx

/-! ### Where each operation reads its operands, in coordinates

An index of the result column is written (r, u) with r one of the 16384 rows and u the one column. -/

/-- Row r of x against the weight column: the left factor is x at (r, d). -/
theorem lin_left (r : Fin 16384) (u : Fin 1) (d : Fin 2048) : lidx_main_v1 (ix2 r u) d = ix2 r d :=
  funext fun a => by match a with | ⟨0, _⟩ => rfl | ⟨1, _⟩ => rfl

/-- The weight column is the weight row transposed: its entry (d, 0) is w at (0, d). -/
theorem lin_right (r : Fin 16384) (u : Fin 1) (d : Fin 2048) :
    idx_main_v0 (ridx_main_v1 (ix2 r u) d) = ix2 (0 : Fin 1) d :=
  funext fun a => by
    match a with
    | ⟨0, _⟩ => exact Fin.ext (by show u.val = 0; omega)
    | ⟨1, _⟩ => rfl

/-- The bias, spread over a 1-by-1 array and then down the column, is its one entry. -/
theorem bias_at (r : Fin 16384) (u : Fin 1) : idx_main_v2 (idx_main_v3 (ix2 r u)) = ix1 (0 : Fin 1) :=
  funext fun a => by match a with | ⟨0, _⟩ => rfl

/-- The factor sum at row r, kept as a column, runs over the entries (r, k) of the difference. -/
theorem factor_at (r : Fin 16384) (u : Fin 1) (k : Fin 128) : idx_main_v11 (idx_main_v12 (ix2 r u)) k = ix2 r k :=
  funext fun a => by match a with | ⟨0, _⟩ => rfl | ⟨1, _⟩ => rfl

/-- x·v at (r, k): the left factor is x at (r, d), -/
theorem xv_left (r : Fin 16384) (k : Fin 128) (d : Fin 2048) : lidx_main_v5 (ix2 r k) d = ix2 r d :=
  funext fun a => by match a with | ⟨0, _⟩ => rfl | ⟨1, _⟩ => rfl

/-- the right factor v at (d, k). -/
theorem xv_right (r : Fin 16384) (k : Fin 128) (d : Fin 2048) : ridx_main_v5 (ix2 r k) d = ix2 d k :=
  funext fun a => by match a with | ⟨0, _⟩ => rfl | ⟨1, _⟩ => rfl

/-- The same for the product of the squares. -/
theorem sq_left (r : Fin 16384) (k : Fin 128) (d : Fin 2048) : lidx_main_v8 (ix2 r k) d = ix2 r d :=
  funext fun a => by match a with | ⟨0, _⟩ => rfl | ⟨1, _⟩ => rfl

theorem sq_right (r : Fin 16384) (k : Fin 128) (d : Fin 2048) : ridx_main_v8 (ix2 r k) d = ix2 d k :=
  funext fun a => by match a with | ⟨0, _⟩ => rfl | ⟨1, _⟩ => rfl

/-! ### The result -/

/-- The reference's last stage, as a function of the four arguments, is the score column. -/
theorem value_eq_score (x0 : (⟨S16384x2048, .f32⟩ : BufTy).Contents (Elt Ideal)) (x1 : (⟨S1x2048, .f32⟩ : BufTy).Contents (Elt Ideal))
    (x2 : (⟨S1, .f32⟩ : BufTy).Contents (Elt Ideal)) (x3 : (⟨S2048x128, .f32⟩ : BufTy).Contents (Elt Ideal)) :
    val_main_v15 (F := Ideal) x0 x1 x2 x3 = Cert.FM.score x0 x1 x2 x3 := by
  funext i
  obtain ⟨r, u, rfl⟩ : ∃ (r : Fin 16384) (u : Fin 1), i = ix2 r u := ⟨i 0, i 1, eq_ix2 i⟩
  rw [val_main_v15_apply, val_main_v4_apply, val_main_v1_apply, val_main_v3_apply, val_main_v2_apply,
    val_main_v14_apply, val_main_v13_apply, val_main_cst_0_apply, val_main_v12_apply, val_main_v11_apply,
    val_main_cst_apply]
  simp only [factor_at, val_main_v10_apply, val_main_v9_apply, val_main_v8_apply, val_main_v5_apply, val_main_v6_apply,
    val_main_v7_apply, val_main_v0_apply, lin_left, lin_right, bias_at, xv_left, xv_right, sq_left, sq_right,
    Ideal.addf_def, Ideal.mulf_def, Ideal.subf_def, Ideal.ofBits_def, Ideal.ofBits_zero_f32, zero_add]
  rfl

end Cert.FM.Reference

end
-- ==== Proof.lean ====
/-
  The kernel and the reference both compute the factorization-machine score

      score r = (Σ_d x[r,d]·w[0,d] + b[0]) + ½ · Σ_k ( (Σ_d x[r,d]·v[d,k])² − Σ_d x[r,d]²·v[d,k]² )

  of every row r of x, as a 16384-by-1 column (Proof/Score.lean).

  The kernel walks the rows in 32 blocks of 512. At each block it forms the linear term as a sum along the lanes of
  x∘w plus the bias, and the interaction term from two matrix products into zero accumulators; the rounding of their
  operands to a shorter float format is the identity on the extended reals. One stored entry is the score of its row
  (Proof/BodyScore.lean), and the 32 stored blocks tile the column (Proof/KernelScore.lean). The reference forms the same
  terms over the whole arrays, the linear term as a product with the transposed weight row (Proof/RefScore.lean).
  Both sides group every product, difference and sum in the same way, so they agree on all extended reals and the
  finiteness of the inputs is not used.

  The three frame claims are the generated frame runs; the kernel's idealization rewrote nothing, so that claim is trivial.
-/
import proofs.«122142_j90134183673918_1_alg».proof.Defs
import proofs.«122142_j90134183673918_1_alg».proof.Proof.Gen.Kernel
import proofs.«122142_j90134183673918_1_alg».proof.Proof.Gen.Kernel.Skeleton
import proofs.«122142_j90134183673918_1_alg».proof.Proof.Gen.Kernel.Launch
import proofs.«122142_j90134183673918_1_alg».proof.Proof.Gen.Kernel.Points
import proofs.«122142_j90134183673918_1_alg».proof.Proof.Gen.Kernel.Frame
import proofs.«122142_j90134183673918_1_alg».proof.Proof.Gen.KernelIdeal
import proofs.«122142_j90134183673918_1_alg».proof.Proof.Gen.KernelIdeal.Skeleton
import proofs.«122142_j90134183673918_1_alg».proof.Proof.Gen.KernelIdeal.Launch
import proofs.«122142_j90134183673918_1_alg».proof.Proof.Gen.KernelIdeal.Points
import proofs.«122142_j90134183673918_1_alg».proof.Proof.Gen.KernelIdeal.Frame
import proofs.«122142_j90134183673918_1_alg».proof.Proof.Gen.ReferenceIdeal
import proofs.«122142_j90134183673918_1_alg».proof.Proof.Gen.Pre_finite_inputs
import proofs.«122142_j90134183673918_1_alg».proof.Proof.Gen.KernelIdeal.Value
import proofs.«122142_j90134183673918_1_alg».proof.Proof.Gen.ReferenceIdeal.Run
import proofs.«122142_j90134183673918_1_alg».proof.Proof.Gen.ReferenceIdeal.Read
import proofs.«122142_j90134183673918_1_alg».proof.Proof.KernelScore
import proofs.«122142_j90134183673918_1_alg».proof.Proof.RefScore
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run with its result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on x, w, b and v both programs end with the score column of those arrays. -/
theorem algebraic : Cert.algebraic_KernelIdeal_ReferenceIdeal := by
  intro m ρ m' ρ' _ hagree
  refine ⟨fun c => Cert.FM.score (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3)),
    Cert.FM.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.FM.Reference.value_eq_score,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
